-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S496x10000 : Shape := ⟨2, ![496, 10000]⟩
abbrev S496x128 : Shape := ⟨2, ![496, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S496x10000, .f32⟩
  | .local _ .vmem, ⟨1, _⟩ => ⟨S496x10000, .f32⟩
  | .local _ .vmem, ⟨2, _⟩ => ⟨S10000x128, .f32⟩
  | .local _ .vmem, ⟨3, _⟩ => ⟨S128x128, .f32⟩
  | .local _ .vmem, ⟨4, _⟩ => ⟨S496x128, .f32⟩
  | .local _ .vmem, ⟨5, _⟩ => ⟨S496x128, .f32⟩
  | .local _ .vmem, ⟨6, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S496x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S496x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S496x10000_S496x10000_0_0 : ∀ a, (![0, 0] : Fin 2 → Nat) a + S496x10000.size a ≤ S496x10000.size a
  h_S496x10000 : 0 < S496x10000.numel
  inb_S496x128_S496x128_0_0 : ∀ a, (![0, 0] : Fin 2 → Nat) a + S496x128.size a ≤ S496x128.size a
  h_S496x128 : 0 < S496x128.numel
  dot_S10000x128_S128x128_S10000x128_1_0_0_1_n_n_wf : DotDims.WF S10000x128 S128x128 S10000x128 [1] [0] [0] [1] [] []
  dot_S496x10000_S10000x128_S496x128_1_0_0_1_n_n_wf : DotDims.WF S496x10000 S10000x128 S496x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S496x10000.size a < S10000x10000.size a
  hwx0_0 : ∀ i : grid0.Coords, EltTy.bits .f32 = 32 ∨ (Rect.unit (s := S10000x10000) (fun a => cc0_transform_0 i a * S496x10000.size a) (fun a => (Pipeline.Clip.of (cc0_transform_0 i a) (S496x10000.size a) (S10000x10000.size a)).extent (S496x10000.size a)) fun a => Pipeline.Clip.inb (Pipeline.Clip.ok_of (hstart0_0 i a))).WholeWords (EltTy.packing .f32)
  hwxs0_0 : ∀ i : grid0.Coords, EltTy.bits .f32 = 32 ∨ (Rect.unit (s := S496x10000) (fun _ => 0) (fun a => (Pipeline.Clip.of (cc0_transform_0 i a) (S496x10000.size a) (S10000x10000.size a)).extent (S496x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S496x128.size a < S10000x128.size a
  hwx0_3 : ∀ i : grid0.Coords, EltTy.bits .f32 = 32 ∨ (Rect.unit (s := S10000x128) (fun a => cc0_transform_3 i a * S496x128.size a) (fun a => (Pipeline.Clip.of (cc0_transform_3 i a) (S496x128.size a) (S10000x128.size a)).extent (S496x128.size a)) fun a => Pipeline.Clip.inb (Pipeline.Clip.ok_of (hstart0_3 i a))).WholeWords (EltTy.packing .f32)
  hwxs0_3 : ∀ i : grid0.Coords, EltTy.bits .f32 = 32 ∨ (Rect.unit (s := S496x128) (fun _ => 0) (fun a => (Pipeline.Clip.of (cc0_transform_3 i a) (S496x128.size a) (S10000x128.size a)).extent (S496x128.size a)) fun a => (Nat.zero_add _).trans_le (Pipeline.Clip.extent_le (Pipeline.Clip.ok_of (hstart0_3 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S496x10000_S10000x128_S496x128_1_0_0_1_n_n : DotDims S496x10000 S10000x128 S496x128 where
  lhsContracting := [1]
  rhsContracting := [0]
  lhsNonContracting := [0]
  rhsNonContracting := [1]
  lhsBatch := []
  rhsBatch := []
  wf := dot_S496x10000_S10000x128_S496x128_1_0_0_1_n_n_wf

abbrev win0_0 : Pipeline.Window sig grid0 :=
  Pipeline.Window.ofSpecClip (Memref.whole main_arg1) S496x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0) S496x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsRuns.lean ====
/-
  The kernel body, run once in each of its two cases.

  The grid has 21 points, one per stripe of 496 rows of the square matrix. At the first point the body first fills its
  scratch buffer with the product of the node features and the filter matrix; at every point it then stores, into the
  result's staging buffer, the product of the stripe it was handed with whatever the scratch buffer holds. So there are two
  cases: the first point, where the scratch is overwritten before it is read, and the later points, where it is only read.
  Each case is stated over any five whole memrefs and any contents, and says which stores the buffers end with.
-/
import proofs.«137259_g24464133718385_cont_8to1_632_16_alg».proof.Proof.Gen.Kernel.Frame
import proofs.«137259_g24464133718385_cont_8to1_632_16_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The branch condition -/

/-- The body's one condition, computed from the grid coordinate: "this is grid point 0". -/
abbrev firstPoint (i : grid0.Coords) : Prop :=
  (Scalar.cmpi .ne (Scalar.extui (Scalar.cmpi .eq (BitVec.ofNat 32 (i 0).val) 0#32)) 0#32) = 1#1

/-- It holds at point 0 and at no other of the 21 points. -/
theorem firstPoint_iff : ∀ t : Fin cfg0.N, firstPoint (grid0.coords t) ↔ t.val = 0 :=
  (by decide +kernel : ∀ t : Fin grid0.N, firstPoint (grid0.coords t) ↔ t.val = 0)

/-! ## The buffers the body is called with -/

/-- Each window's current staging memref at point `t`, and that it is a whole buffer. -/
abbrev ms0 (t : Fin cfg0.N) : Memref sig .tc .vmem S496x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S496x128 .f32 := win0_3.stage (cfg0.slots t 3)
abbrev hs3 (t : Fin cfg0.N) : (ms3 t).IsWhole := hstage0_3 ((cfg0.slots t 3).cast nbuf0_3)
/-- The scratch buffer that holds the feature product from the first point on. -/
abbrev scM : Memref sig .tc .vmem S10000x128 .f32 := Memref.whole cc0_scratch0

/-- What the region hands the body beside the windows: the scratch buffer at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The two runs -/

set_option maxHeartbeats 1000000 in
/-- THE FIRST POINT. With the stripe's buffer at `x1`, the features' at `x2`, the filters' at `x3`, and the result's and
    the scratch at anything, the body runs; the three inputs are left as they were, and the result's buffer and the scratch
    end with the stores listed (found by running the body). -/
noncomputable def runFirst (c : Dev nD) (i : grid0.Coords) (arg1 : Memref sig .tc .vmem S496x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S496x128 .f32) (harg4 : arg4.IsWhole) (arg5 : Memref sig .tc .vmem S10000x128 .f32) (harg5 : arg5.IsWhole) (hc : firstPoint i)
    (x1 : Vec F S496x10000 .f32) (x2 : Vec F S10000x128 .f32) (x3 : Vec F S128x128 .f32) :
    Σ' (L4 : List (View.Piece (Elt F) S496x128 .f32)), { L5 : List (View.Piece (Elt F) S10000x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__gcn_kernel i arg1 harg1 arg2 harg2 arg3 harg3 arg4 harg4 arg5 harg5) K } := by
  refine ⟨?_, ?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := harg1.eq_unread hf1; obtain rfl := harg2.eq_unread hf2; obtain rfl := harg3.eq_unread hf3
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

set_option maxHeartbeats 1000000 in
/-- A LATER POINT. With the stripe's buffer at `x1`, the scratch at `xs`, the features' and the filters' at `x2` and
    `x3` and the result's at anything, the body runs; everything but the result's buffer is left as it was, and the
    result's buffer ends with the stores listed. -/
noncomputable def runLater (c : Dev nD) (i : grid0.Coords) (arg1 : Memref sig .tc .vmem S496x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S496x128 .f32) (harg4 : arg4.IsWhole) (arg5 : Memref sig .tc .vmem S10000x128 .f32) (harg5 : arg5.IsWhole) (hc : ¬firstPoint i)
    (x1 : Vec F S496x10000 .f32) (x2 : Vec F S10000x128 .f32) (x3 : Vec F S128x128 .f32) (xs : Vec F S10000x128 .f32) :
    { L4 : List (View.Piece (Elt F) S496x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ owns (c : Thread nD τ) arg5 fullShare xs
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare xs) -∗ K ⟨⟩))
          ⊢ wp frame (wpE (defs₀ (F := F)) Variants.none c none) E (cc0__gcn_kernel i arg1 harg1 arg2 harg2 arg3 harg3 arg4 harg4 arg5 harg5) K } := by
  refine ⟨?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%d4, %f4, -, H4⟩, ⟨%f5, %hf5, H5⟩, Hk⟩
    obtain rfl := harg1.eq_unread hf1; obtain rfl := harg2.eq_unread hf2; obtain rfl := harg3.eq_unread hf3
    obtain rfl := harg5.eq_unread hf5
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; isplitr; · ipureintro; exact harg5.read_unread _
    iexact H5

end Cert.Kernel.Body

end
-- ==== Proof.LibWholeRect.lean ====
/-
  Whole-buffer rectangles.

  A kernel body that loads or stores a whole buffer does it through the rectangle at offset zero whose extents are the
  buffer's own. Every index of the shape lies in that rectangle; one store through it leaves exactly its payload, whatever
  the buffer held before; and a whole memref read through it gives back its contents.
-/
import Idealize.ShloMosaic.Lib.Pipeline.Frame
import Idealize.ShloMosaic.Lib.Pipeline.FrameBody
import Idealize.ShloMosaic.Lib.Pipeline.Value

noncomputable section

namespace Cert.Lib

open Idealize.ShloMosaic

variable {sig : RefSig} {Val : EltTy → Type}

/-- The printed zero offsets of ranks two and three are the zero function. -/
theorem off2_zero : (![0, 0] : Fin 2 → ℕ) = fun _ => 0 := by funext a; fin_cases a <;> rfl
theorem off3_zero : (![0, 0, 0] : Fin 3 → ℕ) = fun _ => 0 := by funext a; fin_cases a <;> rfl

/-- Every index of a shape lies in the rectangle at offset zero of the shape's own extents. -/
theorem mem_unit_zero {S : Shape} {off : Fin S.rank → ℕ} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- One store through that rectangle leaves its payload, whatever the buffer held. -/
theorem read_write_whole [∀ e, Nonempty (Val e)] {κ : Kind} {sp : Space} {S : Shape} {e : EltTy} (v : View sig κ sp S e)
    (f : v.ty.Contents Val) {off : Fin S.rank → ℕ} (h : off = fun _ => 0) (inb : ∀ a, off a + S.size a ≤ S.size a)
    (w : S.Idx → Val e) :
    v.read Val (v.writes Val f [(⟨Rect.unit off S.size inb, w⟩ : View.Piece Val S e)]) = w := by
  rw [View.read_writes_eq_canon _ _ _ (fun y => ⟨_, List.mem_singleton_self _, mem_unit_zero h inb y⟩), View.canon_unit_zero h]

/-- A whole memref read through that rectangle is its contents. -/
theorem readAt_whole {κ : Kind} {sp : Space} {S : Shape} {e : EltTy} (M : Memref sig κ sp S e) (hM : M.IsWhole)
    {off : Fin S.rank → ℕ} (h : off = fun _ => 0) (inb : ∀ a, off a + S.size a ≤ S.size a) (x : S.Idx → Val e) :
    View.readAt Val M.view (Rect.unit off S.size inb).toLoadRect (hM.unread x) = x := by
  rw [View.readAt_eq_ld, hM.read_unread, View.ld_unit_zero h]

end Cert.Lib

end
-- ==== Proof.BitsBody.lean ====
/-
  What the kernel body leaves behind, case by case.

  Every access of the body is through a whole buffer: a load reads the buffer's contents and a store leaves its payload.
  So at the first point the scratch ends holding the product of the features' buffer with the filters' buffer, and the
  result's buffer the product of the stripe's buffer with that; at a later point the scratch is untouched and the result's
  buffer holds the product of the stripe's buffer with the scratch. The two products are the body's two payloads
  (`k0_pay1`, `k0_pay2`), kept folded here.
-/
import proofs.«137259_g24464133718385_cont_8to1_632_16_alg».proof.Proof.BitsRuns
import proofs.«137259_g24464133718385_cont_8to1_632_16_alg».proof.Proof.LibWholeRect

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The stores read back -/

section Pieces

variable (c : Dev nD) (i : grid0.Coords) (arg1 : Memref sig .tc .vmem S496x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S496x128 .f32) (harg4 : arg4.IsWhole) (arg5 : Memref sig .tc .vmem S10000x128 .f32) (harg5 : arg5.IsWhole)
  (x1 : Vec F S496x10000 .f32) (x2 : Vec F S10000x128 .f32) (x3 : Vec F S128x128 .f32)

/-- After the first point the scratch holds the features times the filters. -/
theorem first_scratch (hc : firstPoint i) (f) :
    arg5.view.read (Elt F) (arg5.view.writes (Elt F) f (runFirst c i arg1 harg1 arg2 harg2 arg3 harg3 arg4 harg4 arg5 harg5 hc x1 x2 x3).2.1) = k0_pay1 x2 x3 := by
  unfold runFirst; dsimp only; sl_unfold_run_names
  refine (Cert.Lib.read_write_whole (Val := Elt F) arg5.view f Cert.Lib.off2_zero _ _).trans ?_
  rw [Cert.Lib.readAt_whole arg2 harg2 Cert.Lib.off2_zero, Cert.Lib.readAt_whole arg3 harg3 Cert.Lib.off2_zero]

/-- After the first point the result's buffer holds the stripe times that product: the scratch is read after it was stored. -/
theorem first_out (hc : firstPoint i) (f) :
    arg4.view.read (Elt F) (arg4.view.writes (Elt F) f (runFirst c i arg1 harg1 arg2 harg2 arg3 harg3 arg4 harg4 arg5 harg5 hc x1 x2 x3).1) = k0_pay2 x1 (k0_pay1 x2 x3) := by
  unfold runFirst; dsimp only; sl_unfold_run_names
  refine (Cert.Lib.read_write_whole (Val := Elt F) arg4.view f Cert.Lib.off2_zero _ _).trans ?_
  rw [View.readCov_unit_zero arg5.view Cert.Lib.off2_zero, Cert.Lib.readAt_whole arg1 harg1 Cert.Lib.off2_zero,
    Cert.Lib.readAt_whole arg2 harg2 Cert.Lib.off2_zero, Cert.Lib.readAt_whole arg3 harg3 Cert.Lib.off2_zero]

/-- After a later point the result's buffer holds the stripe times what the scratch held. -/
theorem later_out (hc : ¬firstPoint i) (xs : Vec F S10000x128 .f32) (f) :
    arg4.view.read (Elt F) (arg4.view.writes (Elt F) f (runLater c i arg1 harg1 arg2 harg2 arg3 harg3 arg4 harg4 arg5 harg5 hc x1 x2 x3 xs).1) = k0_pay2 x1 xs := by
  unfold runLater; dsimp only
  refine (Cert.Lib.read_write_whole (Val := Elt F) arg4.view f Cert.Lib.off2_zero _ _).trans ?_
  rw [Cert.Lib.readAt_whole arg1 harg1 Cert.Lib.off2_zero, Cert.Lib.readAt_whole arg5 harg5 Cert.Lib.off2_zero]

end Pieces

/-! ## The body at a grid point -/

/-- AT THE FIRST POINT: from the stripe's, features' and filters' buffers at `x1`, `x2`, `x3` and the result's buffer and
    the scratch at anything, the body leaves the inputs as they were, the scratch at `x2 · x3` and the result's buffer at
    `x1 · (x2 · x3)`. -/
theorem body_first (c : Dev nD) (t : Fin cfg0.N) (ht : t.val = 0)
    (x1 : Vec F S496x10000 .f32) (x2 : Vec F S10000x128 .f32) (x3 : Vec F S128x128 .f32) (K : PUnit → sProp 𝕄) :
    iprop(owns (c : Thread nD τ) (ms0 t) fullShare x1 ∗ owns (c : Thread nD τ) (ms1 t) fullShare x2 ∗ owns (c : Thread nD τ) (ms2 t) fullShare x3
        ∗ (∃ d, owns (c : Thread nD τ) (ms3 t) fullShare d) ∗ (∃ d, owns (c : Thread nD τ) scM fullShare d)
        ∗ (iprop(owns (c : Thread nD τ) (ms0 t) fullShare x1 ∗ owns (c : Thread nD τ) (ms1 t) fullShare x2 ∗ owns (c : Thread nD τ) (ms2 t) fullShare x3
            ∗ owns (c : Thread nD τ) (ms3 t) fullShare (k0_pay2 x1 (k0_pay1 x2 x3))
            ∗ owns (c : Thread nD τ) scM fullShare (k0_pay1 x2 x3)) -∗ K ⟨⟩))
      ⊢ wp frame (wpE (defs₀ (F := F)) Variants.none c none) Set.univ (bodyAt0 t) K := by
  iintro ⟨H1, H2, H3, H4, H5, Hk⟩
  iapply ((runFirst c (grid0.coords t) (ms0 t) (hs0 t) (ms1 t) (hs1 t) (ms2 t) (hs2 t) (ms3 t) (hs3 t) scM (Memref.isWhole_whole _) ((firstPoint_iff t).mpr ht) x1 x2 x3).2.2 Set.univ K)
  isplitl [H1]; · iexact H1
  isplitl [H2]; · iexact H2
  isplitl [H3]; · iexact H3
  isplitl [H4]; · iexact H4
  isplitl [H5]; · iexact H5
  iintro ⟨H1, H2, H3, ⟨%e4, H4⟩, ⟨%e5, H5⟩⟩
  iapply Hk
  isplitl [H1]; · iexact H1
  isplitl [H2]; · iexact H2
  isplitl [H3]; · iexact H3
  isplitl [H4]
  · unfold owns; iexists _; isplitr
    swap; · iexact H4
    ipureintro; exact first_out c _ _ _ _ _ _ _ _ _ _ _ x1 x2 x3 _ _
  · unfold owns; iexists _; isplitr
    swap; · iexact H5
    ipureintro; exact first_scratch c _ _ _ _ _ _ _ _ _ _ _ x1 x2 x3 _ _

/-- AT A LATER POINT: from the same and the scratch at `xs`, the body leaves everything but the result's buffer as it was,
    and that at `x1 · xs`. -/
theorem body_later (c : Dev nD) (t : Fin cfg0.N) (ht : t.val ≠ 0)
    (x1 : Vec F S496x10000 .f32) (x2 : Vec F S10000x128 .f32) (x3 : Vec F S128x128 .f32) (xs : Vec F S10000x128 .f32)
    (K : PUnit → sProp 𝕄) :
    iprop(owns (c : Thread nD τ) (ms0 t) fullShare x1 ∗ owns (c : Thread nD τ) (ms1 t) fullShare x2 ∗ owns (c : Thread nD τ) (ms2 t) fullShare x3
        ∗ (∃ d, owns (c : Thread nD τ) (ms3 t) fullShare d) ∗ owns (c : Thread nD τ) scM fullShare xs
        ∗ (iprop(owns (c : Thread nD τ) (ms0 t) fullShare x1 ∗ owns (c : Thread nD τ) (ms1 t) fullShare x2 ∗ owns (c : Thread nD τ) (ms2 t) fullShare x3
            ∗ owns (c : Thread nD τ) (ms3 t) fullShare (k0_pay2 x1 xs)
            ∗ owns (c : Thread nD τ) scM fullShare xs) -∗ K ⟨⟩))
      ⊢ wp frame (wpE (defs₀ (F := F)) Variants.none c none) Set.univ (bodyAt0 t) K := by
  iintro ⟨H1, H2, H3, H4, H5, Hk⟩
  iapply ((runLater c (grid0.coords t) (ms0 t) (hs0 t) (ms1 t) (hs1 t) (ms2 t) (hs2 t) (ms3 t) (hs3 t) scM (Memref.isWhole_whole _) (fun h => ht ((firstPoint_iff t).mp h)) x1 x2 x3 xs).2 Set.univ K)
  isplitl [H1]; · iexact H1
  isplitl [H2]; · iexact H2
  isplitl [H3]; · iexact H3
  isplitl [H4]; · iexact H4
  isplitl [H5]; · iexact H5
  iintro ⟨H1, H2, H3, ⟨%e4, H4⟩, H5⟩
  iapply Hk
  isplitl [H1]; · iexact H1
  isplitl [H2]; · iexact H2
  isplitl [H3]; · iexact H3
  isplitl [H4]
  · unfold owns; iexists _; isplitr
    swap; · iexact H4
    ipureintro; exact later_out c _ _ _ _ _ _ _ _ _ _ _ x1 x2 x3 _ xs _
  · iexact H5

end Cert.Kernel.Body

end
-- ==== Proof.BitsFrame.lean ====
/-
  The kernel as printed runs and leaves its arguments alone.

  For the frame nothing of the result's contents is needed, so the result's staging buffer is handed to the body at
  anything and taken back at anything, and the scratch is held at some contents throughout. What is tracked is what the
  pipeline's own bookkeeping needs: the stripe's buffer keeps the stripe's rows inside the array, and the features' and
  filters' buffers keep their arrays.
-/
import proofs.«137259_g24464133718385_cont_8to1_632_16_alg».proof.Proof.BitsBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window whose contents are not named: the result's. -/
def forgets : Fin 4 → Bool := fun w => w.val == 3

/-- The stripe's staging buffer at point `t` with the rows past the array's end filled with zero. -/
def stripe (c : Dev nD) (t : Fin cfg0.N) : Vec F S496x10000 .f32 :=
  win0_0.fill (grid0.coords t) (fun _ => FloatOps.ofBits (F := F) .f32 0#32) (iblk m c 0 t)

theorem stripe_cut (c : Dev nD) (t : Fin cfg0.N) : win0_0.cut (grid0.coords t) (stripe m c t) = iblk m c 0 t :=
  win0_0.cut_fill _ _ _

/-- The proof data: the arrays as launched; after the body the stripe's buffer at the stripe, the features' and filters' at
    their arrays, the result's unnamed; the scratch and the generator register at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => stripe m c t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = stripe m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

/-- What the body finds: the stripe just fetched — its rows inside the array, `d` below them —, -/
theorem before_0 (c : Dev nD) (t : Fin cfg0.N) (d) :
    (dats m 0 c).before 0 t d = win0_0.fill (grid0.coords t) d (iblk m c 0 t) := by
  rw [Dat.before_fetched _ 0 t (fetch0_0 t)]; unfold Dat.fetched Dat.blockOf iblk; rw [A_eq]; try rfl
/-- and the features and the filters, fetched at the first point and left in place since. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))

/-- and what it returns: the stripe's buffer stated on the rows inside the array only. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) ((dats m 0 c).after 0 t))))
    ∗ owns (c : Thread nD τ) (ms1 t) fullShare ((dats m 0 c).after 1 t)
    ∗ owns (c : Thread nD τ) (ms2 t) fullShare ((dats m 0 c).after 2 t)
    ∗ (∃ d, owns (c : Thread nD τ) (ms3 t) fullShare d))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, after_0, after_1, after_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq, stripe_cut]
  by_cases hz : t.val = 0
  · iintro ⟨⟨HS, Hg⟩, Ho, ⟨%d0, H0⟩, ⟨%d1, H1⟩, ⟨%d2, H2⟩, H3⟩
    iapply (body_first c t hz (win0_0.fill (grid0.coords t) d0 (iblk m c 0 t)) (iblk m c 1 t) (iblk m c 2 t) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexists _; iexact HS
      iexact Hg
    isplitl [Ho]; · iexact Ho
    isplitl [H0]; · iexists d0; iexact H0
    isplitl [H1]; · iexact H1
    isplitl [H2]; · iexact H2
    iexists _; iexact H3
  · iintro ⟨⟨⟨%ds, HS⟩, Hg⟩, Ho, ⟨%d0, H0⟩, ⟨%d1, H1⟩, ⟨%d2, H2⟩, H3⟩
    iapply (body_later c t hz (win0_0.fill (grid0.coords t) d0 (iblk m c 0 t)) (iblk m c 1 t) (iblk m c 2 t) ds _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexists _; iexact HS
      iexact Hg
    isplitl [Ho]; · iexact Ho
    isplitl [H0]; · iexists d0; iexact H0
    isplitl [H1]; · iexact H1
    isplitl [H2]; · iexact H2
    iexists _; iexact H3

/-- The library's body obligation, at every point, the result's window forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

set_option backward.isDefEq.respectTransparency.types false in
/-- Every weakly fair execution of @main terminates, every input array unchanged, nothing stated of the result. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: it terminates, faults nowhere, and the three arguments end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget forgets).ArrAt_in 1 rfl _) _) ((h c).1 1)).trans ((A_eq m c 1).trans (V_main_arg0 m c)),
     (Eq.mp (congrFun (((dats m 0 c).toRForget forgets).ArrAt_in 0 rfl _) _) ((h c).1 0)).trans ((A_eq m c 0).trans (V_main_arg1 m c)),
     (Eq.mp (congrFun (((dats m 0 c).toRForget forgets).ArrAt_in 2 rfl _) _) ((h c).1 2)).trans ((A_eq m c 2).trans (V_main_arg2 m c))⟩)
    (run_main m ρ)

end Cert.Kernel.Body

end
-- ==== Proof.IdealRuns.lean ====
/-
  The kernel body, run once in each of its two cases.

  The grid has 21 points, one per stripe of 496 rows of the square matrix. At the first point the body first fills its
  scratch buffer with the product of the node features and the filter matrix; at every point it then stores, into the
  result's staging buffer, the product of the stripe it was handed with whatever the scratch buffer holds. So there are two
  cases: the first point, where the scratch is overwritten before it is read, and the later points, where it is only read.
  Each case is stated over any five whole memrefs and any contents, and says which stores the buffers end with.
-/
import proofs.«137259_g24464133718385_cont_8to1_632_16_alg».proof.Proof.Gen.KernelIdeal.Frame
import proofs.«137259_g24464133718385_cont_8to1_632_16_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The branch condition -/

/-- The body's one condition, computed from the grid coordinate: "this is grid point 0". -/
abbrev firstPoint (i : grid0.Coords) : Prop :=
  (Scalar.cmpi .ne (Scalar.extui (Scalar.cmpi .eq (BitVec.ofNat 32 (i 0).val) 0#32)) 0#32) = 1#1

/-- It holds at point 0 and at no other of the 21 points. -/
theorem firstPoint_iff : ∀ t : Fin cfg0.N, firstPoint (grid0.coords t) ↔ t.val = 0 :=
  (by decide +kernel : ∀ t : Fin grid0.N, firstPoint (grid0.coords t) ↔ t.val = 0)

/-! ## The buffers the body is called with -/

/-- Each window's current staging memref at point `t`, and that it is a whole buffer. -/
abbrev ms0 (t : Fin cfg0.N) : Memref sig .tc .vmem S496x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S496x128 .f32 := win0_3.stage (cfg0.slots t 3)
abbrev hs3 (t : Fin cfg0.N) : (ms3 t).IsWhole := hstage0_3 ((cfg0.slots t 3).cast nbuf0_3)
/-- The scratch buffer that holds the feature product from the first point on. -/
abbrev scM : Memref sig .tc .vmem S10000x128 .f32 := Memref.whole cc0_scratch0

/-- What the region hands the body beside the windows: the scratch buffer at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The two runs -/

set_option maxHeartbeats 1000000 in
/-- THE FIRST POINT. With the stripe's buffer at `x1`, the features' at `x2`, the filters' at `x3`, and the result's and
    the scratch at anything, the body runs; the three inputs are left as they were, and the result's buffer and the scratch
    end with the stores listed (found by running the body). -/
noncomputable def runFirst (c : Dev nD) (i : grid0.Coords) (arg1 : Memref sig .tc .vmem S496x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S496x128 .f32) (harg4 : arg4.IsWhole) (arg5 : Memref sig .tc .vmem S10000x128 .f32) (harg5 : arg5.IsWhole) (hc : firstPoint i)
    (x1 : Vec F S496x10000 .f32) (x2 : Vec F S10000x128 .f32) (x3 : Vec F S128x128 .f32) :
    Σ' (L4 : List (View.Piece (Elt F) S496x128 .f32)), { L5 : List (View.Piece (Elt F) S10000x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__gcn_kernel i arg1 harg1 arg2 harg2 arg3 harg3 arg4 harg4 arg5 harg5) K } := by
  refine ⟨?_, ?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := harg1.eq_unread hf1; obtain rfl := harg2.eq_unread hf2; obtain rfl := harg3.eq_unread hf3
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

set_option maxHeartbeats 1000000 in
/-- A LATER POINT. With the stripe's buffer at `x1`, the scratch at `xs`, the features' and the filters' at `x2` and
    `x3` and the result's at anything, the body runs; everything but the result's buffer is left as it was, and the
    result's buffer ends with the stores listed. -/
noncomputable def runLater (c : Dev nD) (i : grid0.Coords) (arg1 : Memref sig .tc .vmem S496x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S496x128 .f32) (harg4 : arg4.IsWhole) (arg5 : Memref sig .tc .vmem S10000x128 .f32) (harg5 : arg5.IsWhole) (hc : ¬firstPoint i)
    (x1 : Vec F S496x10000 .f32) (x2 : Vec F S10000x128 .f32) (x3 : Vec F S128x128 .f32) (xs : Vec F S10000x128 .f32) :
    { L4 : List (View.Piece (Elt F) S496x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ owns (c : Thread nD τ) arg5 fullShare xs
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare xs) -∗ K ⟨⟩))
          ⊢ wp frame (wpE (defs₀ (F := F)) Variants.none c none) E (cc0__gcn_kernel i arg1 harg1 arg2 harg2 arg3 harg3 arg4 harg4 arg5 harg5) K } := by
  refine ⟨?_, fun E K => ?run⟩
  case run =>
    simp only [cc0__gcn_kernel_eq_skeleton]; unfold cc0__gcn_kernel_skel
    unfold owns
    iintro ⟨⟨%f1, %hf1, H1⟩, ⟨%f2, %hf2, H2⟩, ⟨%f3, %hf3, H3⟩, ⟨%d4, %f4, -, H4⟩, ⟨%f5, %hf5, H5⟩, Hk⟩
    obtain rfl := harg1.eq_unread hf1; obtain rfl := harg2.eq_unread hf2; obtain rfl := harg3.eq_unread hf3
    obtain rfl := harg5.eq_unread hf5
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; isplitr; · ipureintro; exact harg5.read_unread _
    iexact H5

end Cert.KernelIdeal.Body

end
-- ==== Proof.IdealBody.lean ====
/-
  What the kernel body leaves behind, case by case.

  Every access of the body is through a whole buffer: a load reads the buffer's contents and a store leaves its payload.
  So at the first point the scratch ends holding the product of the features' buffer with the filters' buffer, and the
  result's buffer the product of the stripe's buffer with that; at a later point the scratch is untouched and the result's
  buffer holds the product of the stripe's buffer with the scratch. The two products are the body's two payloads
  (`k0_pay1`, `k0_pay2`), kept folded here.
-/
import proofs.«137259_g24464133718385_cont_8to1_632_16_alg».proof.Proof.IdealRuns
import proofs.«137259_g24464133718385_cont_8to1_632_16_alg».proof.Proof.LibWholeRect

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The stores read back -/

section Pieces

variable (c : Dev nD) (i : grid0.Coords) (arg1 : Memref sig .tc .vmem S496x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S496x128 .f32) (harg4 : arg4.IsWhole) (arg5 : Memref sig .tc .vmem S10000x128 .f32) (harg5 : arg5.IsWhole)
  (x1 : Vec F S496x10000 .f32) (x2 : Vec F S10000x128 .f32) (x3 : Vec F S128x128 .f32)

/-- After the first point the scratch holds the features times the filters. -/
theorem first_scratch (hc : firstPoint i) (f) :
    arg5.view.read (Elt F) (arg5.view.writes (Elt F) f (runFirst c i arg1 harg1 arg2 harg2 arg3 harg3 arg4 harg4 arg5 harg5 hc x1 x2 x3).2.1) = k0_pay1 x2 x3 := by
  unfold runFirst; dsimp only; sl_unfold_run_names
  refine (Cert.Lib.read_write_whole (Val := Elt F) arg5.view f Cert.Lib.off2_zero _ _).trans ?_
  rw [Cert.Lib.readAt_whole arg2 harg2 Cert.Lib.off2_zero, Cert.Lib.readAt_whole arg3 harg3 Cert.Lib.off2_zero]

/-- After the first point the result's buffer holds the stripe times that product: the scratch is read after it was stored. -/
theorem first_out (hc : firstPoint i) (f) :
    arg4.view.read (Elt F) (arg4.view.writes (Elt F) f (runFirst c i arg1 harg1 arg2 harg2 arg3 harg3 arg4 harg4 arg5 harg5 hc x1 x2 x3).1) = k0_pay2 x1 (k0_pay1 x2 x3) := by
  unfold runFirst; dsimp only; sl_unfold_run_names
  refine (Cert.Lib.read_write_whole (Val := Elt F) arg4.view f Cert.Lib.off2_zero _ _).trans ?_
  rw [View.readCov_unit_zero arg5.view Cert.Lib.off2_zero, Cert.Lib.readAt_whole arg1 harg1 Cert.Lib.off2_zero,
    Cert.Lib.readAt_whole arg2 harg2 Cert.Lib.off2_zero, Cert.Lib.readAt_whole arg3 harg3 Cert.Lib.off2_zero]

/-- After a later point the result's buffer holds the stripe times what the scratch held. -/
theorem later_out (hc : ¬firstPoint i) (xs : Vec F S10000x128 .f32) (f) :
    arg4.view.read (Elt F) (arg4.view.writes (Elt F) f (runLater c i arg1 harg1 arg2 harg2 arg3 harg3 arg4 harg4 arg5 harg5 hc x1 x2 x3 xs).1) = k0_pay2 x1 xs := by
  unfold runLater; dsimp only
  refine (Cert.Lib.read_write_whole (Val := Elt F) arg4.view f Cert.Lib.off2_zero _ _).trans ?_
  rw [Cert.Lib.readAt_whole arg1 harg1 Cert.Lib.off2_zero, Cert.Lib.readAt_whole arg5 harg5 Cert.Lib.off2_zero]

end Pieces

/-! ## The body at a grid point -/

/-- AT THE FIRST POINT: from the stripe's, features' and filters' buffers at `x1`, `x2`, `x3` and the result's buffer and
    the scratch at anything, the body leaves the inputs as they were, the scratch at `x2 · x3` and the result's buffer at
    `x1 · (x2 · x3)`. -/
theorem body_first (c : Dev nD) (t : Fin cfg0.N) (ht : t.val = 0)
    (x1 : Vec F S496x10000 .f32) (x2 : Vec F S10000x128 .f32) (x3 : Vec F S128x128 .f32) (K : PUnit → sProp 𝕄) :
    iprop(owns (c : Thread nD τ) (ms0 t) fullShare x1 ∗ owns (c : Thread nD τ) (ms1 t) fullShare x2 ∗ owns (c : Thread nD τ) (ms2 t) fullShare x3
        ∗ (∃ d, owns (c : Thread nD τ) (ms3 t) fullShare d) ∗ (∃ d, owns (c : Thread nD τ) scM fullShare d)
        ∗ (iprop(owns (c : Thread nD τ) (ms0 t) fullShare x1 ∗ owns (c : Thread nD τ) (ms1 t) fullShare x2 ∗ owns (c : Thread nD τ) (ms2 t) fullShare x3
            ∗ owns (c : Thread nD τ) (ms3 t) fullShare (k0_pay2 x1 (k0_pay1 x2 x3))
            ∗ owns (c : Thread nD τ) scM fullShare (k0_pay1 x2 x3)) -∗ K ⟨⟩))
      ⊢ wp frame (wpE (defs₀ (F := F)) Variants.none c none) Set.univ (bodyAt0 t) K := by
  iintro ⟨H1, H2, H3, H4, H5, Hk⟩
  iapply ((runFirst c (grid0.coords t) (ms0 t) (hs0 t) (ms1 t) (hs1 t) (ms2 t) (hs2 t) (ms3 t) (hs3 t) scM (Memref.isWhole_whole _) ((firstPoint_iff t).mpr ht) x1 x2 x3).2.2 Set.univ K)
  isplitl [H1]; · iexact H1
  isplitl [H2]; · iexact H2
  isplitl [H3]; · iexact H3
  isplitl [H4]; · iexact H4
  isplitl [H5]; · iexact H5
  iintro ⟨H1, H2, H3, ⟨%e4, H4⟩, ⟨%e5, H5⟩⟩
  iapply Hk
  isplitl [H1]; · iexact H1
  isplitl [H2]; · iexact H2
  isplitl [H3]; · iexact H3
  isplitl [H4]
  · unfold owns; iexists _; isplitr
    swap; · iexact H4
    ipureintro; exact first_out c _ _ _ _ _ _ _ _ _ _ _ x1 x2 x3 _ _
  · unfold owns; iexists _; isplitr
    swap; · iexact H5
    ipureintro; exact first_scratch c _ _ _ _ _ _ _ _ _ _ _ x1 x2 x3 _ _

/-- AT A LATER POINT: from the same and the scratch at `xs`, the body leaves everything but the result's buffer as it was,
    and that at `x1 · xs`. -/
theorem body_later (c : Dev nD) (t : Fin cfg0.N) (ht : t.val ≠ 0)
    (x1 : Vec F S496x10000 .f32) (x2 : Vec F S10000x128 .f32) (x3 : Vec F S128x128 .f32) (xs : Vec F S10000x128 .f32)
    (K : PUnit → sProp 𝕄) :
    iprop(owns (c : Thread nD τ) (ms0 t) fullShare x1 ∗ owns (c : Thread nD τ) (ms1 t) fullShare x2 ∗ owns (c : Thread nD τ) (ms2 t) fullShare x3
        ∗ (∃ d, owns (c : Thread nD τ) (ms3 t) fullShare d) ∗ owns (c : Thread nD τ) scM fullShare xs
        ∗ (iprop(owns (c : Thread nD τ) (ms0 t) fullShare x1 ∗ owns (c : Thread nD τ) (ms1 t) fullShare x2 ∗ owns (c : Thread nD τ) (ms2 t) fullShare x3
            ∗ owns (c : Thread nD τ) (ms3 t) fullShare (k0_pay2 x1 xs)
            ∗ owns (c : Thread nD τ) scM fullShare xs) -∗ K ⟨⟩))
      ⊢ wp frame (wpE (defs₀ (F := F)) Variants.none c none) Set.univ (bodyAt0 t) K := by
  iintro ⟨H1, H2, H3, H4, H5, Hk⟩
  iapply ((runLater c (grid0.coords t) (ms0 t) (hs0 t) (ms1 t) (hs1 t) (ms2 t) (hs2 t) (ms3 t) (hs3 t) scM (Memref.isWhole_whole _) (fun h => ht ((firstPoint_iff t).mp h)) x1 x2 x3 xs).2 Set.univ K)
  isplitl [H1]; · iexact H1
  isplitl [H2]; · iexact H2
  isplitl [H3]; · iexact H3
  isplitl [H4]; · iexact H4
  isplitl [H5]; · iexact H5
  iintro ⟨H1, H2, H3, ⟨%e4, H4⟩, H5⟩
  iapply Hk
  isplitl [H1]; · iexact H1
  isplitl [H2]; · iexact H2
  isplitl [H3]; · iexact H3
  isplitl [H4]
  · unfold owns; iexists _; isplitr
    swap; · iexact H4
    ipureintro; exact later_out c _ _ _ _ _ _ _ _ _ _ _ x1 x2 x3 _ xs _
  · iexact H5

end Cert.KernelIdeal.Body

end
-- ==== Proof.IdealData.lean ====
/-
  The proof data of the idealized kernel's pipeline.

  Point `t` of the grid is handed stripe `t` of the propagation matrix: rows `496·t` to `496·t + 495`, of which only the rows
  below 10000 exist — the last stripe has 80. The stripe's staging buffer holds those rows and, below them, words nothing
  names; the body multiplies the whole buffer with the scratch, so the rows of the result's buffer past the array's end are
  unnamed too, and they are never written back. What is named: the feature product the scratch holds from the first point
  on, and the rows of each tile inside the array.
-/
import proofs.«137259_g24464133718385_cont_8to1_632_16_alg».proof.Proof.IdealBody
import Idealize.ShloMosaic.Lib.Pipeline.Value
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The first grid point. -/
abbrev t0 : Fin cfg0.N := ⟨0, by rw [show cfg0.N = 21 from N_0]; decide⟩

/-- The stripe's staging buffer at point `t` with the rows past the array's end filled with zero. -/
def stripe (c : Dev nD) (t : Fin cfg0.N) : Vec Ideal S496x10000 .f32 :=
  win0_0.fill (grid0.coords t) (fun _ => FloatOps.ofBits (F := Ideal) .f32 0#32) (iblk m c 0 t)

/-- The feature product `x · w`, which the scratch holds from the first point on. -/
def featProd (c : Dev nD) : Vec Ideal S10000x128 .f32 := k0_pay1 (F := Ideal) (iblk m c 1 t0) (iblk m c 2 t0)

/-- The tile the body computes at point `t` from that stripe. -/
def outTile (c : Dev nD) (t : Fin cfg0.N) : Vec Ideal S496x128 .f32 := k0_pay2 (F := Ideal) (stripe m c t) (featProd m c)

/-- The invariant before point `n`: before the first, the scratch at anything; afterwards at the feature product. -/
def PhiS (c : Dev nD) : (n : ℕ) → n ≤ cfg0.N → sProp 𝕄
  | 0, _ => Pipeline.ΦA spec0 c
  | _ + 1, _ => iprop(iprop(owns (c : Thread nD τ) scM fullShare (featProd m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) scM fullShare (featProd m c)) ∗ (∃ r, prngReg c r)) := by
  cases n with
  | zero => exact absurd rfl hz
  | succ n => rfl

/-- The proof data: the arrays as launched; after the body the stripe's buffer at the stripe, the features' and filters' at
    their arrays, the result's at the tile; the invariant `PhiS`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => stripe m c t
    | ⟨1, _⟩ => iblk m c 1 t
    | ⟨2, _⟩ => iblk m c 2 t
    | ⟨3, _⟩ => outTile m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = stripe m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outTile m c t := by dsimp only [dats]

/-- What the body finds: the stripe just fetched — its rows inside the array, `d` below them —, -/
theorem before_0 (c : Dev nD) (t : Fin cfg0.N) (d) :
    (dats m 0 c).before 0 t d = win0_0.fill (grid0.coords t) d (iblk m c 0 t) := by
  rw [Dat.before_fetched _ 0 t (fetch0_0 t)]; unfold Dat.fetched Dat.blockOf iblk; rw [A_eq]; try rfl
/-- the features and the filters, fetched at the first point and left in place since, -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
/-- and the result's buffer at anything: it was written back at the point before. -/
theorem before_3 (c : Dev nD) (t : Fin cfg0.N) (d) : (dats m 0 c).before 3 t d = d :=
  Dat.before_out_reset _ 3 rfl t (by
    by_cases h : t.val = 0
    · exact .inl h
    · exact .inr ⟨h, flush0_3 _⟩) d

end Cert.KernelIdeal.Body

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.Spec.lean ====
/-
  The graph-convolution layer as one function of its three arrays.

  With `x` the node features (10000 × 128), `a` the square propagation matrix (10000 × 10000) and `w` the filters
  (128 × 128), the layer is `a · (x · w)`: entry `(p, q)` is the sum over nodes `k` of `a (p, k)` times the feature product
  `(x · w) (k, q)`, itself the sum over features `j` of `x (k, j) · w (j, q)`. Both programs compute it with this very
  grouping, so nothing about sums on the extended reals is needed beyond reading each product as its sum.
-/
import Idealize.ShloMosaic.PureOps.Ideal.Laws
import Idealize.ShloMosaic.Lib.ValueIdx

noncomputable section

namespace Cert.Gcn

open Idealize.ShloMosaic Idealize.ShloMosaic.ValueIdx
open scoped BigOperators

/-- The shapes: node features and the result; the propagation matrix; the filters. -/
abbrev SN : Shape := ⟨2, ![10000, 128]⟩
abbrev SA : Shape := ⟨2, ![10000, 10000]⟩
abbrev SW : Shape := ⟨2, ![128, 128]⟩

/-- The feature product `x · w` at node `k` and filter `q`. -/
def feat (x : SN.Idx → EReal) (w : SW.Idx → EReal) (k : Fin 10000) (q : Fin 128) : EReal :=
  ∑ j : Fin 128, x (ix2 k j) * w (ix2 j q)

/-- The layer `a · (x · w)` at node `p` and filter `q`. -/
def layerAt (x : SN.Idx → EReal) (a : SA.Idx → EReal) (w : SW.Idx → EReal) (p : Fin 10000) (q : Fin 128) : EReal :=
  ∑ k : Fin 10000, a (ix2 p k) * feat x w k q

/-- The layer as an array. -/
def layer (x : SN.Idx → EReal) (a : SA.Idx → EReal) (w : SW.Idx → EReal) : SN.Idx → EReal :=
  fun i => layerAt x a w (i 0) (i 1)

theorem layer_ix2 (x : SN.Idx → EReal) (a : SA.Idx → EReal) (w : SW.Idx → EReal) (p : Fin 10000) (q : Fin 128) :
    layer x a w (ix2 p q) = layerAt x a w p q := rfl

end Cert.Gcn

end
-- ==== Proof.IdealValue.lean ====
/-
  The idealized kernel's tiles, entry by entry.

  On the extended reals a matrix product into a zero accumulator is, at `(p, q)`, the sum over the contracted index of
  row `p` of the left operand against column `q` of the right one. So row `p` of a tile depends on row `p` of the stripe's
  buffer only: the rows of a tile that lie inside the array are the same whatever the buffer holds past the array's end.
  Read through the windows' blocks, those rows are the rows of the layer `a · (x · w)`.
-/
import proofs.«137259_g24464133718385_cont_8to1_632_16_alg».proof.Proof.IdealData
import proofs.«137259_g24464133718385_cont_8to1_632_16_alg».proof.Proof.LibMatDot
import proofs.«137259_g24464133718385_cont_8to1_632_16_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx Cert.Gcn

variable (m : (ℓ : Loc nD τ sig) → Buf (Elt Ideal) ℓ)

/-! ## The two products as sums -/

/-- The first payload, features times filters, at node `k` and filter `q`. -/
theorem pay1_apply (x2 : Vec Ideal S10000x128 .f32) (x3 : Vec Ideal S128x128 .f32) (k : Fin 10000) (q : Fin 128) :
    k0_pay1 (F := Ideal) x2 x3 (ix2 k q) = ∑ j : Fin 128, x2 (ix2 k j) * x3 (ix2 j q) := by
  unfold k0_pay1
  refine (congrFun (shapeCast_self _ _) _).trans ?_
  exact Cert.Lib.matmul_plain_zero_apply (a := 10000) (K := 128) (b := 128) _ none x2 x3 k q

/-- The second payload, a stripe's buffer times the scratch, at row `p` of the tile and filter `q`. -/
theorem pay2_apply (x1 : Vec Ideal S496x10000 .f32) (xs : Vec Ideal S10000x128 .f32) (p : Fin 496) (q : Fin 128) :
    k0_pay2 (F := Ideal) x1 xs (ix2 p q) = ∑ k : Fin 10000, x1 (ix2 p k) * xs (ix2 k q) := by
  unfold k0_pay2
  exact Cert.Lib.matmul_plain_zero_apply (a := 496) (K := 10000) (b := 128) _ none x1 xs p q

/-! ## The windows' cuts and block indices, decided over the 21 points -/

/-- The stripe's window and the result's window are cut at the same row; neither is cut along the other axis. -/
theorem xsize_facts : ∀ t : Fin cfg0.N, win0_0.xsize (grid0.coords t) 0 = win0_3.xsize (grid0.coords t) 0
      ∧ win0_0.xsize (grid0.coords t) 1 = 10000 ∧ win0_3.xsize (grid0.coords t) 1 = 128
      ∧ 496 * t.val + win0_3.xsize (grid0.coords t) 0 ≤ 10000 :=
  (by decide +kernel : ∀ t : Fin grid0.N, win0_0.xsize (grid0.coords t) 0 = win0_3.xsize (grid0.coords t) 0
      ∧ win0_0.xsize (grid0.coords t) 1 = 10000 ∧ win0_3.xsize (grid0.coords t) 1 = 128
      ∧ 496 * t.val + win0_3.xsize (grid0.coords t) 0 ≤ 10000)

/-- Stripe `t` and tile `t` start at row `496·t`, column 0; the features and the filters are one block each. -/
theorem index_facts : ∀ t : Fin cfg0.N, win0_0.index t 0 = t.val ∧ win0_0.index t 1 = 0
      ∧ win0_3.index t 0 = t.val ∧ win0_3.index t 1 = 0
      ∧ win0_1.index t 0 = 0 ∧ win0_1.index t 1 = 0 ∧ win0_2.index t 0 = 0 ∧ win0_2.index t 1 = 0 :=
  (by decide +kernel : ∀ t : Fin grid0.N, win0_0.index t 0 = t.val ∧ win0_0.index t 1 = 0
      ∧ win0_3.index t 0 = t.val ∧ win0_3.index t 1 = 0
      ∧ win0_1.index t 0 = 0 ∧ win0_1.index t 1 = 0 ∧ win0_2.index t 0 = 0 ∧ win0_2.index t 1 = 0)

/-! ## The blocks as entries of the arrays -/

/-- The features' block is the features' array. -/
theorem feat_block (c : Dev nD) (t : Fin cfg0.N) (k : Fin 10000) (j : Fin 128) :
    (iblk m c 1 t : Vec Ideal S10000x128 .f32) (ix2 k j)
      = (m ((c : Thread nD τ).loc main_arg0) : S10000x128.Idx → Elt Ideal .f32) (ix2 k j) := by
  obtain ⟨-, -, -, -, h0, h1, -, -⟩ := index_facts t
  unfold iblk
  rw [View.read_apply]
  show V m c main_arg0 _ = m (c.tc.loc main_arg0) _
  unfold V
  congr 1
  funext a
  apply Fin.ext
  match a with
  | ⟨0, _⟩ => show win0_1.index t 0 * 10000 + 1 * k.val = k.val; rw [h0]; omega
  | ⟨1, _⟩ => show win0_1.index t 1 * 128 + 1 * j.val = j.val; rw [h1]; omega

/-- The filters' block is the filters' array. -/
theorem filt_block (c : Dev nD) (t : Fin cfg0.N) (j : Fin 128) (q : Fin 128) :
    (iblk m c 2 t : Vec Ideal S128x128 .f32) (ix2 j q)
      = (m ((c : Thread nD τ).loc main_arg2) : S128x128.Idx → Elt Ideal .f32) (ix2 j q) := by
  obtain ⟨-, -, -, -, -, -, h0, h1⟩ := index_facts t
  unfold iblk
  rw [View.read_apply]
  show V m c main_arg2 _ = m (c.tc.loc main_arg2) _
  unfold V
  congr 1
  funext a
  apply Fin.ext
  match a with
  | ⟨0, _⟩ => show win0_2.index t 0 * 128 + 1 * j.val = j.val; rw [h0]; omega
  | ⟨1, _⟩ => show win0_2.index t 1 * 128 + 1 * q.val = q.val; rw [h1]; omega

/-- Row `r` of stripe `t`, inside the array, is row `496·t + r` of the propagation matrix. -/
theorem stripe_block (c : Dev nD) (t : Fin cfg0.N) (y : (win0_0.xblock (grid0.coords t)).Idx) (p : Fin 10000) (k : Fin 10000)
    (hp : p.val = 496 * t.val + (y 0).val) (hk : k.val = (y 1).val) :
    iblk m c 0 t y = (m ((c : Thread nD τ).loc main_arg1) : S10000x10000.Idx → Elt Ideal .f32) (ix2 p k) := by
  obtain ⟨h0, h1, -⟩ := index_facts t
  unfold iblk
  rw [View.read_apply]
  show V m c main_arg1 _ = m (c.tc.loc main_arg1) _
  unfold V
  congr 1
  funext a
  apply Fin.ext
  match a with
  | ⟨0, _⟩ => show win0_0.index t 0 * 496 + 1 * (y 0).val = p.val; rw [h0, hp]; omega
  | ⟨1, _⟩ => show win0_0.index t 1 * 10000 + 1 * (y 1).val = k.val; rw [h1, hk]; omega

/-- The scratch's contents from the first point on are the feature product of the arrays. -/
theorem featProd_apply (c : Dev nD) (k : Fin 10000) (q : Fin 128) :
    featProd m c (ix2 k q) = feat (m ((c : Thread nD τ).loc main_arg0)) (m ((c : Thread nD τ).loc main_arg2)) k q := by
  unfold featProd feat
  rw [pay1_apply]
  refine Finset.sum_congr rfl fun j _ => ?_
  rw [feat_block, filt_block]

/-! ## A tile's rows inside the array -/

/-- Row `p` of the stripe's buffer, when it lies inside the array, is a row the fetch filled. -/
theorem moved_row (t : Fin cfg0.N) (p : Fin 496) (k : Fin 10000) (hp : p.val < win0_3.xsize (grid0.coords t) 0) :
    win0_0.moved (grid0.coords t) (ix2 p k) = true := by
  rw [Window.moved_iff]
  obtain ⟨h0, h1, -, -⟩ := xsize_facts t
  intro a
  match a with
  | ⟨0, _⟩ => exact lt_of_lt_of_eq hp h0.symm
  | ⟨1, _⟩ => exact lt_of_lt_of_eq k.isLt h1.symm

/-- There the filled buffer reads the fetched block, whatever it was filled out with. -/
theorem fill_row (t : Fin cfg0.N) (d : S496x10000.Idx → Elt Ideal .f32)
    (g : (win0_0.xblock (grid0.coords t)).Idx → Elt Ideal .f32) (p : Fin 496) (k : Fin 10000)
    (hp : p.val < win0_3.xsize (grid0.coords t) 0) :
    win0_0.fill (grid0.coords t) d g (ix2 p k)
      = g fun a => ⟨((ix2 p k : S496x10000.Idx) a).val, (win0_0.moved_iff _ _).mp (moved_row t p k hp) a⟩ := by
  unfold Window.fill; rw [dif_pos (moved_row t p k hp)]

/-- A row of a tile inside the array, as the sum over that row of the stripe's buffer. -/
theorem tile_entry (t : Fin cfg0.N) (X : Vec Ideal S496x10000 .f32) (S : Vec Ideal S10000x128 .f32)
    (j : (win0_3.xblock (grid0.coords t)).Idx) (p : Fin 496) (q : Fin 128) (hp : p.val = (j 0).val) (hq : q.val = (j 1).val) :
    win0_3.cut (grid0.coords t) (k0_pay2 (F := Ideal) X S) j = ∑ k : Fin 10000, X (ix2 p k) * S (ix2 k q) := by
  have e : win0_3.xinj (grid0.coords t) j = ix2 p q :=
    funext fun a => Fin.ext (by match a with | ⟨0, _⟩ => exact hp.symm | ⟨1, _⟩ => exact hq.symm)
  show k0_pay2 (F := Ideal) X S (win0_3.xinj (grid0.coords t) j) = _
  rw [e, pay2_apply]

/-- Whatever lay below the stripe, the tile's rows inside the array are the named tile's: nothing past the array's end
    enters a row inside it. -/
theorem tile_leaves (c : Dev nD) (t : Fin cfg0.N) (d0 : S496x10000.Idx → Elt Ideal .f32) :
    win0_3.cut (grid0.coords t) (k0_pay2 (F := Ideal) (win0_0.fill (grid0.coords t) d0 (iblk m c 0 t)) (featProd m c))
      = win0_3.cut (grid0.coords t) (outTile m c t) := by
  funext j
  have hj0 : (j 0).val < win0_3.xsize (grid0.coords t) 0 := (j 0).isLt
  have hp : (j 0).val < 496 := lt_of_lt_of_le (j 0).isLt (win0_3.xsize_le (grid0.coords t) 0)
  have hq : (j 1).val < 128 := lt_of_lt_of_le (j 1).isLt (win0_3.xsize_le (grid0.coords t) 1)
  unfold outTile stripe
  rw [tile_entry t _ _ j ⟨(j 0).val, hp⟩ ⟨(j 1).val, hq⟩ rfl rfl, tile_entry t _ _ j ⟨(j 0).val, hp⟩ ⟨(j 1).val, hq⟩ rfl rfl]
  refine Finset.sum_congr rfl fun k _ => ?_
  rw [fill_row t _ _ ⟨(j 0).val, hp⟩ k hj0, fill_row t _ _ ⟨(j 0).val, hp⟩ k hj0]

/-- Entry `j` of the result's block at point `t` is the array's entry at row `496·t + j 0`, column `j 1`. -/
theorem out_block (t : Fin cfg0.N) (L : (⟨S10000x128, .f32⟩ : BufTy).Contents (Elt Ideal))
    (j : (win0_3.xblock (grid0.coords t)).Idx) (p : Fin 10000) (q : Fin 128)
    (hp : p.val = 496 * t.val + (j 0).val) (hq : q.val = (j 1).val) :
    (win0_3.blk t).view.read (Elt Ideal) L j = L (ix2 p q) := by
  obtain ⟨-, -, h30, h31, -⟩ := index_facts t
  rw [View.read_apply]
  show L _ = L _
  congr 1
  funext a
  apply Fin.ext
  match a with
  | ⟨0, _⟩ => show win0_3.index t 0 * 496 + 1 * (j 0).val = p.val; rw [h30, hp]; omega
  | ⟨1, _⟩ => show win0_3.index t 1 * 128 + 1 * (j 1).val = q.val; rw [h31, hq]; omega

/-- The rows of tile `t` that are written back are rows `496·t …` of the layer. -/
theorem flushed_eq (c : Dev nD) (t : Fin cfg0.N) :
    win0_3.cut (grid0.coords t) (outTile m c t)
      = (win0_3.blk t).view.read (Elt Ideal)
          (layer (m ((c : Thread nD τ).loc main_arg0)) (m ((c : Thread nD τ).loc main_arg1)) (m ((c : Thread nD τ).loc main_arg2))) := by
  funext j
  obtain ⟨-, -, -, hrow⟩ := xsize_facts t
  have hj0 : (j 0).val < win0_3.xsize (grid0.coords t) 0 := (j 0).isLt
  have hq : (j 1).val < 128 := lt_of_lt_of_le (j 1).isLt (win0_3.xsize_le (grid0.coords t) 1)
  have hp : 496 * t.val + (j 0).val < 10000 := by omega
  rw [out_block t _ j ⟨496 * t.val + (j 0).val, hp⟩ ⟨(j 1).val, hq⟩ rfl rfl, layer_ix2]
  have hp' : (j 0).val < 496 := lt_of_lt_of_le (j 0).isLt (win0_3.xsize_le (grid0.coords t) 0)
  unfold outTile layerAt
  rw [tile_entry t _ _ j ⟨(j 0).val, hp'⟩ ⟨(j 1).val, hq⟩ rfl rfl]
  refine Finset.sum_congr rfl fun k _ => ?_
  unfold stripe
  rw [fill_row t _ _ ⟨(j 0).val, hp'⟩ k hj0, featProd_apply]
  refine congrArg (· * _) ?_
  exact stripe_block m c t _ _ k rfl rfl

/-- The last block reaches the array's end: a block is whole, or it ends at row 10000. -/
theorem edge_facts : ∀ t : Fin cfg0.N, win0_3.xsize (grid0.coords t) 0 = 496 ∨ 10000 ≤ 496 * t.val + win0_3.xsize (grid0.coords t) 0 :=
  (by decide +kernel : ∀ t : Fin grid0.N, win0_3.xsize (grid0.coords t) 0 = 496 ∨ 10000 ≤ 496 * t.val + win0_3.xsize (grid0.coords t) 0)

end Cert.KernelIdeal.Body

end
-- ==== Proof.IdealFrame.lean ====
/-
  The idealized kernel runs, leaves its arguments alone, and its result is the layer.

  Point by point: the stripe's buffer arrives holding the stripe's rows inside the array and anything below them; the
  features and the filters are in their buffers; the scratch holds anything before the first point and the feature product
  after it. The body leaves the tile's buffer at the stripe's buffer times the scratch. Of that tile only the rows inside the
  array are written back, and those do not depend on what lay below the stripe; they are the layer's rows `496·t …`. The 21
  clipped blocks cover the 10000 rows, so the result array ends holding the layer.
-/
import proofs.«137259_g24464133718385_cont_8to1_632_16_alg».proof.Proof.IdealValue

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

open Idealize.ShloMosaic.ValueIdx Cert.Gcn

variable (m : (ℓ : Loc nD τ sig) → Buf (Elt Ideal) ℓ) (ρ : Dev nD → PrngReg)

/-- The layer of the launch contents of the three argument arrays of core `c`. -/
abbrev layerOf (c : Dev nD) : SN.Idx → EReal :=
  layer (m ((c : Thread nD τ).loc main_arg0)) (m ((c : Thread nD τ).loc main_arg1)) (m ((c : Thread nD τ).loc main_arg2))

/-! ## The body obligation -/

/-- The stripe with its overhang zeroed, cut back to the array, is the stripe's block. -/
theorem stripe_cut (c : Dev nD) (t : Fin cfg0.N) : win0_0.cut (grid0.coords t) (stripe m c t) = iblk m c 0 t :=
  win0_0.cut_fill _ _ _

set_option maxHeartbeats 1600000 in
/-- At every point the body takes the buffers as the pipeline hands them to the buffers as the proof data names them. -/
theorem body_obligation (c : Dev nD) :
    BodyObligationLoose (dats m 0 c) (defs₀ (F := Ideal)) Variants.none () Set.univ := fun t => by
  rw [bigSep_W0, bigSep_W0]
  simp only
  simp only [before_0, before_1, before_2, before_3, after_0, after_1, after_2, after_3]
  rw [show (dats m 0 c).owesAt () t.succ = (dats m 0 c).owesAt () t.castSucc from rfl,
    show (dats m 0 c).Φ t.succ = PhiS m c (t.val + 1) t.isLt from rfl, Phi_castSucc,
    PhiS_pos m c (t.val + 1) t.isLt (Nat.succ_ne_zero _)]
  show _ ⊢ wp frame (wpE (defs₀ (F := Ideal)) Variants.none c none) Set.univ (bodyAt0 t) _
  by_cases hz : t.val = 0
  · rw [PhiS_zero m c _ _ hz, PhiA_eq]
    iintro ⟨⟨HS, Hg⟩, Ho, ⟨%d0, H0⟩, ⟨%d1, H1⟩, ⟨%d2, H2⟩, H3⟩
    iapply (body_first (F := Ideal) c t hz (win0_0.fill (grid0.coords t) d0 (iblk m c 0 t)) (iblk m c 1 t) (iblk m c 2 t) _)
    isplitl [H0]; · iexact H0
    isplitl [H1]; · iexact H1
    isplitl [H2]; · iexact H2
    isplitl [H3]; · iexact H3
    isplitl [HS]; · iexact HS
    iintro ⟨H0, H1, H2, H3, HS⟩
    have ht : t = t0 := Fin.ext hz
    have hS : k0_pay1 (F := Ideal) (iblk m c 1 t) (iblk m c 2 t) = featProd m c := by rw [ht]; rfl
    rw [hS]
    isplitl [HS Hg]
    · isplitl [HS]; · iexact HS
      iexact Hg
    isplitl [Ho]; · iexact Ho
    isplitl [H0]
    · iexists d0
      change _ ⊢ owns (c : Thread nD τ) (stage0_0 (cfg0.slots t 0)) fullShare (win0_0.fill (grid0.coords t) d0 (win0_0.cut (grid0.coords t) (stripe m c t)))
      rw [stripe_cut]; try iexact H0
    isplitl [H1]; · iexact H1
    isplitl [H2]; · iexact H2
    · iexists _
      change _ ⊢ owns (c : Thread nD τ) (stage0_3 (cfg0.slots t 3)) fullShare (win0_3.fill (grid0.coords t) _ (win0_3.cut (grid0.coords t) (outTile m c t)))
      rw [win0_3.fill_congr_cut (grid0.coords t) (tile_leaves m c t d0)]; try iexact H3
  · rw [PhiS_pos m c _ _ hz]
    iintro ⟨⟨HS, Hg⟩, Ho, ⟨%d0, H0⟩, ⟨%d1, H1⟩, ⟨%d2, H2⟩, H3⟩
    iapply (body_later (F := Ideal) c t hz (win0_0.fill (grid0.coords t) d0 (iblk m c 0 t)) (iblk m c 1 t) (iblk m c 2 t) (featProd m c) _)
    isplitl [H0]; · iexact H0
    isplitl [H1]; · iexact H1
    isplitl [H2]; · iexact H2
    isplitl [H3]; · iexact H3
    isplitl [HS]; · iexact HS
    iintro ⟨H0, H1, H2, H3, HS⟩
    isplitl [HS Hg]
    · isplitl [HS]; · iexact HS
      iexact Hg
    isplitl [Ho]; · iexact Ho
    isplitl [H0]
    · iexists d0
      change _ ⊢ owns (c : Thread nD τ) (stage0_0 (cfg0.slots t 0)) fullShare (win0_0.fill (grid0.coords t) d0 (win0_0.cut (grid0.coords t) (stripe m c t)))
      rw [stripe_cut]; try iexact H0
    isplitl [H1]; · iexact H1
    isplitl [H2]; · iexact H2
    · iexists _
      change _ ⊢ owns (c : Thread nD τ) (stage0_3 (cfg0.slots t 3)) fullShare (win0_3.fill (grid0.coords t) _ (win0_3.cut (grid0.coords t) (outTile m c t)))
      rw [win0_3.fill_congr_cut (grid0.coords t) (tile_leaves m c t d0)]; try iexact H3

/-! ## The invariant at the region's ends -/

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the scratch's contents are forgotten again. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 21 := N_0; omega), PhiA_eq]
  iintro ⟨HS, Hg⟩
  isplitl [HS]
  · iexists _; iexact HS
  iexact Hg

/-! ## The run -/

set_option backward.isDefEq.respectTransparency.types false in
/-- Every weakly fair execution of @main terminates, with every array of the pipeline at what the proof data computes. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The frame: it terminates, faults nowhere, and the three arguments end as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-! ## The result array -/

/-- Every row of the result lies in the clipped block of the point `row / 496`. -/
theorem covered (i : S10000x128.Idx) :
    ∃ t : Fin cfg0.N, (cfg0.win 3).flush t = true ∧ i ∈ ((cfg0.win 3).blk t).view.set := by
  have hN : cfg0.N = 21 := N_0
  have h0 : (i 0 : Nat) < 10000 := (i 0).isLt
  have h1 : (i 1 : Nat) < 128 := (i 1).isLt
  refine ⟨⟨(i 0 : Nat) / 496, by rw [hN]; omega⟩, flush0_3 _, ?_⟩
  generalize ht : (⟨(i 0 : Nat) / 496, by rw [hN]; omega⟩ : Fin cfg0.N) = t
  have htv : t.val = (i 0 : Nat) / 496 := by rw [← ht]
  obtain ⟨-, -, h30, h31, -⟩ := index_facts t
  obtain ⟨-, -, hx1, -⟩ := xsize_facts t
  have hx0 := edge_facts t
  show i ∈ ((View.whole main_v0).slice (win0_3.rect t)).set
  rw [View.set_slice_whole, Rect.mem_set_unit]
  intro a
  match a with
  | ⟨0, _⟩ =>
    show win0_3.index t 0 * 496 ≤ (i 0 : Nat) ∧ (i 0 : Nat) < win0_3.index t 0 * 496 + win0_3.xsize (grid0.coords t) 0
    rw [h30]
    rcases hx0 with hx0 | hx0 <;> omega
  | ⟨1, _⟩ =>
    show win0_3.index t 1 * 128 ≤ (i 1 : Nat) ∧ (i 1 : Nat) < win0_3.index t 1 * 128 + win0_3.xsize (grid0.coords t) 1
    rw [h31, hx1]; omega

/-- So the result array ends holding the layer. -/
theorem final_out (c : Dev nD) : (dats m 0 c).arrAt 3 cfg0.N = layerOf m c :=
  (dats m 0 c).arrAt_eq_of_cover 3 (layerOf m c) (fun t _ => by
    show (cfg0.win 3).cut (grid0.coords t) ((dats m 0 c).after 3 t) = _
    rw [after_3]; exact flushed_eq m c t) covered

/-- The run, read: the result array at the layer of the arguments, the arguments unchanged. -/
theorem run : θ_run defs (onTc (τ := τ) (main (F := Ideal))) ⟨m, fun _ => 0, ρ⟩ fun r => ∀ c : Dev nD,
      r.2.mem ((c.tc : Thread nD τ).loc main_v0) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final_out m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c)))⟩) (run_main m ρ)

end Cert.KernelIdeal.Body

end
-- ==== Proof.RefLayer.lean ====
/-
  The reference computes the layer.

  The reference is two host matrix products, `x · w` and then `a ·` that. Read at an index each is its sum over the
  contracted axis, and the indices it reads its operands at are the layer's.
-/
import proofs.«137259_g24464133718385_cont_8to1_632_16_alg».proof.Proof.Gen.ReferenceIdeal.Read
import proofs.«137259_g24464133718385_cont_8to1_632_16_alg».proof.Proof.Spec

noncomputable section

namespace Cert.ReferenceIdeal.Layer

open Cert.ReferenceIdeal Cert.ReferenceIdeal.Gen Cert.ReferenceIdeal.Read
open Idealize.ShloMosaic Idealize.ShloMosaic.ValueIdx Cert.Gcn

/-- The first product at `(k, q)` is the feature product. -/
theorem first_eq (x0 : (⟨S10000x128, .f32⟩ : BufTy).Contents (Elt Ideal)) (x2 : (⟨S128x128, .f32⟩ : BufTy).Contents (Elt Ideal))
    (k : Fin 10000) (q : Fin 128) : val_main_v0 (F := Ideal) x0 x2 (ix2 k q) = feat x0 x2 k q := by
  rw [val_main_v0_apply]; unfold feat
  refine Finset.sum_congr rfl fun j _ => ?_
  refine congrArg₂ (· * ·) (congrArg x0 ?_) (congrArg x2 ?_)
  · exact funext fun a => Fin.ext (by match a with | ⟨0, _⟩ => rfl | ⟨1, _⟩ => rfl)
  · exact funext fun a => Fin.ext (by match a with | ⟨0, _⟩ => rfl | ⟨1, _⟩ => rfl)

/-- The reference's result is the layer of its three arguments. -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) : val_main_v1 (F := Ideal) x0 x1 x2 = layer x0 x1 x2 := by
  funext i
  obtain ⟨p, q, rfl⟩ : ∃ (p : Fin 10000) (q : Fin 128), i = ix2 p q := ⟨i 0, i 1, eq_ix2 i⟩
  rw [val_main_v1_apply, layer_ix2]; unfold layerAt
  refine Finset.sum_congr rfl fun k _ => ?_
  refine congrArg₂ (· * ·) (congrArg x1 ?_) ?_
  · exact funext fun a => Fin.ext (by match a with | ⟨0, _⟩ => rfl | ⟨1, _⟩ => rfl)
  · rw [← first_eq x0 x2 k q]
    refine congrArg (val_main_v0 (F := Ideal) x0 x2) ?_
    exact funext fun a => Fin.ext (by match a with | ⟨0, _⟩ => rfl | ⟨1, _⟩ => rfl)

end Cert.ReferenceIdeal.Layer

end
-- ==== Proof.lean ====
/-
  The certificate of a graph-convolution layer `a · (x · w)`: a kernel that forms the feature product `x · w` once, in a
  scratch buffer at the first of 21 grid points, and at each point multiplies one stripe of 496 rows of `a` with it —
  against the two host matrix products of the reference.

  On the extended reals both programs compute, at `(p, q)`, the sum over `k` of `a (p, k)` times the sum over `j` of
  `x (k, j) · w (j, q)`, with that very grouping, so the two results are equal with no appeal to finiteness. The last stripe
  overhangs the array (10000 = 20 · 496 + 80): the rows of its staging buffer past the array's end hold words nothing names,
  and so do the matching rows of the last tile, but a row of a product depends on the same row of its left operand only, and
  only the rows inside the array are written back. The ideal pass rewrote nothing, so the idealized kernel is the printed one
  read at exact arithmetic.
-/
import proofs.«137259_g24464133718385_cont_8to1_632_16_alg».proof.Defs
import proofs.«137259_g24464133718385_cont_8to1_632_16_alg».proof.Proof.Gen.Kernel
import proofs.«137259_g24464133718385_cont_8to1_632_16_alg».proof.Proof.Gen.KernelIdeal
import proofs.«137259_g24464133718385_cont_8to1_632_16_alg».proof.Proof.Gen.ReferenceIdeal
import proofs.«137259_g24464133718385_cont_8to1_632_16_alg».proof.Proof.Gen.ReferenceIdeal.Read
import proofs.«137259_g24464133718385_cont_8to1_632_16_alg».proof.Proof.Gen.Pre_finite_inputs
import proofs.«137259_g24464133718385_cont_8to1_632_16_alg».proof.Proof.BitsFrame
import proofs.«137259_g24464133718385_cont_8to1_632_16_alg».proof.Proof.IdealFrame
import proofs.«137259_g24464133718385_cont_8to1_632_16_alg».proof.Proof.RefLayer
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_kernel : Cert.frame_Kernel := fun m ρ _ => Cert.Kernel.Body.frame (F := Bits) m ρ

/-- So does the idealized kernel. -/
theorem frame_kernelIdeal : Cert.frame_KernelIdeal := fun m ρ _ => Cert.KernelIdeal.Body.frame m ρ

/-- The reference is two host operations: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the three arguments, both programs end with the layer of those arguments. -/
theorem algebraic : Cert.algebraic_KernelIdeal_ReferenceIdeal := by
  intro m ρ m' ρ' _ hagree
  refine ⟨fun c => Cert.KernelIdeal.Body.layerOf m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.Layer.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
